-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x1024 : Shape := ⟨2, ![8192, 1024]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x8192 .f32) (main_arg1 : FVec F S8192x1024 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x8192 : Shape := ⟨2, ![8192, 8192]⟩
abbrev S8192x1024 : Shape := ⟨2, ![8192, 1024]⟩
abbrev S256x8192 : Shape := ⟨2, ![256, 8192]⟩
abbrev S256x1024 : Shape := ⟨2, ![256, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8192x1024, .f32⟩
  | .hbm, ⟨2, _⟩ => ⟨S8192x8192, .bf16⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8192x1024, .f32⟩
  | .local _ .vmem, ⟨0, _⟩ => ⟨S256x8192, .bf16⟩
  | .local _ .vmem, ⟨1, _⟩ => ⟨S256x8192, .bf16⟩
  | .local _ .vmem, ⟨2, _⟩ => ⟨S8192x1024, .bf16⟩
  | .local _ .vmem, ⟨3, _⟩ => ⟨S8192x1024, .bf16⟩
  | .local _ .vmem, ⟨4, _⟩ => ⟨S256x1024, .f32⟩
  | .local _ .vmem, ⟨5, _⟩ => ⟨S256x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S8192x1024_S8192x1024_0_0 : ∀ a, (![0, 0] : Fin 2 → Nat) a + S8192x1024.size a ≤ S8192x1024.size a
  h_S8192x1024 : 0 < S8192x1024.numel
  shapeCasts_S8192x1024_S8192x1024 : S8192x1024.ShapeCasts S8192x1024
  inb_S256x1024_S256x1024_0_0 : ∀ a, (![0, 0] : Fin 2 → Nat) a + S256x1024.size a ≤ S256x1024.size a
  h_S256x1024 : 0 < S256x1024.numel
  dot_S256x8192_S8192x1024_S256x1024_1_0_0_1_n_n_wf : DotDims.WF S256x8192 S8192x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .bf16 = 32 ∨ (Rect.block (s := S8192x8192) S256x8192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1024.size a ≤ S8192x1024.size a
  hwx0_1 : ∀ i : grid0.Coords, EltTy.bits .bf16 = 32 ∨ (Rect.block (s := S8192x1024) S8192x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x1024.size a ≤ S8192x1024.size a
  hwx0_2 : ∀ i : grid0.Coords, EltTy.bits .bf16 = 32 ∨ (Rect.block (s := S8192x1024) S8192x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)

variable [Facts₀]

def dot_S256x8192_S8192x1024_S256x1024_1_0_0_1_n_n : DotDims S256x8192 S8192x1024 S256x1024 where
  lhsContracting := [1]
  rhsContracting := [0]
  lhsNonContracting := [0]
  rhsNonContracting := [1]
  lhsBatch := []
  rhsBatch := []
  wf := dot_S256x8192_S8192x1024_S256x1024_1_0_0_1_n_n_wf

abbrev win0_0 : Pipeline.Window sig grid0 :=
  Pipeline.Window.ofSpec (Memref.whole main_v0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8192x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x1024, .f32⟩
  | .hbm, ⟨2, _⟩ => ⟨S8192x1024, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x8192_S8192x1024_S8192x1024_1_0_0_1_n_n_wf : DotDims.WF S8192x8192 S8192x1024 S8192x1024 [1] [0] [0] [1] [] []

variable [Facts₀]

def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.Spec.lean ====
/-
  Rows of selectors against columns of a table, on the extended reals.

  For a selector array `A` of 8192 rows by 8192 columns and a table `W` of 8192 rows by 1024 columns, the entry of the
  product at row `p` and column `e` is the sum over `k` of `A[p, k] · W[k, e]`.  A table split into a leading part and
  the remainder left after taking that part away contributes, entry by entry, `W[k, e]` and `W[k, e] − W[k, e]`; when
  every table entry is a real number the remainder is zero, a product with zero is zero whatever the selector holds,
  and a sum of zeros adds nothing: the two partial products together are the one product.
-/
import Idealize.ShloMosaic.PureOps.Ideal
import Idealize.ShloMosaic.Lib.ValueIdx

noncomputable section

open scoped BigOperators

namespace Cert.Lookup

open Idealize.ShloMosaic Idealize.ShloMosaic.ValueIdx

/-- The product of the selector rows with the table columns: entry `(p, e)` is `∑ₖ A[p, k] · W[k, e]`. -/
def rowsByCols (A : (⟨2, ![8192, 8192]⟩ : Shape).Idx → EReal) (W : (⟨2, ![8192, 1024]⟩ : Shape).Idx → EReal) :
    (⟨2, ![8192, 1024]⟩ : Shape).Idx → EReal :=
  fun i => ∑ k : Fin 8192, A (ix2 (i 0) k) * W (ix2 k (i 1))

/-- A real number taken away from itself leaves zero, so the second partial product vanishes term by term and the
    sum of the two partial products is the first alone. Only the table's entries need be real: `x · 0 = 0` holds for
    every extended real `x`. -/
theorem sum_add_sum_mul_sub_self {ι : Type} [Fintype ι] (a w : ι → EReal) (hw : ∀ k, w k ≠ ⊤ ∧ w k ≠ ⊥) :
    ∑ k, a k * w k + ∑ k, a k * (w k - w k) = ∑ k, a k * w k := by
  have hz : ∀ k, a k * (w k - w k) = 0 := fun k => by rw [EReal.sub_self (hw k).1 (hw k).2, mul_zero]
  simp only [hz, Finset.sum_const_zero, add_zero]

/-- The sum of the two partial products, of the selectors with a leading part `H` and with a remainder `L`. -/
def twoPass (A : (⟨2, ![8192, 8192]⟩ : Shape).Idx → EReal) (H L : (⟨2, ![8192, 1024]⟩ : Shape).Idx → EReal) :
    (⟨2, ![8192, 1024]⟩ : Shape).Idx → EReal :=
  fun i => ∑ k : Fin 8192, A (ix2 (i 0) k) * H (ix2 k (i 1)) + ∑ k : Fin 8192, A (ix2 (i 0) k) * L (ix2 k (i 1))

/-- A table's entries, each minus itself. -/
def subSelf (W : (⟨2, ![8192, 1024]⟩ : Shape).Idx → EReal) : (⟨2, ![8192, 1024]⟩ : Shape).Idx → EReal := fun i => W i - W i

/-- With the table itself as leading part and its entries minus themselves as remainder, a table of real numbers
    gives the one product. -/
theorem twoPass_sub_self (A : (⟨2, ![8192, 8192]⟩ : Shape).Idx → EReal) (W : (⟨2, ![8192, 1024]⟩ : Shape).Idx → EReal)
    (hW : ∀ i, W i ≠ ⊤ ∧ W i ≠ ⊥) : twoPass A W (subSelf W) = rowsByCols A W :=
  funext fun i => sum_add_sum_mul_sub_self (fun k => A (ix2 (i 0) k)) (fun k => W (ix2 k (i 1))) fun k => hW _

end Cert.Lookup

end
-- ==== Proof.Finite.lean ====
/-
  What the precondition says of the table: every entry is a real number.

  The precondition is the conjunction of two tests, one per argument array, each asking of every entry `x` that
  `|x| < +∞`, where `|x|` is `max x (−x)`.  The second conjunct, read at one entry of the table, rules out both
  infinities: `x = +∞` gives `|x| = +∞`, and `x = −∞` gives `−x = +∞`, so again `|x| = +∞`.
-/
import proofs.«128299_j22471268892727_2_alg».proof.Pre_finite_inputs
import Idealize.ShloMosaic.PureOps.Ideal
import Idealize.ShloMosaic.Lib.ReduceAll
import Idealize.ShloMosaic.Lib.ValueIdx

noncomputable section

namespace Cert.Lookup

open Idealize.ShloMosaic Cert.Pre_finite_inputs

/-- The scalar shape has one index. -/
instance : Subsingleton S_.Idx := ⟨fun a b => funext fun d => d.elim0⟩

/-- The word `0x7F800000` is `+∞`. -/
theorem ofBits_inf : Ideal.ofBits .f32 0x7F800000#32 = (⊤ : EReal) := by simp [Ideal.ofBits, Ideal.ieee]

/-- Under the precondition every entry of the second argument array is neither `+∞` nor `−∞`. -/
theorem table_real [hF : Cert.Pre_finite_inputs.Facts] (x0 : FVec Ideal S8192x8192 .f32) (x1 : FVec Ideal S8192x1024 .f32)
    (h : Cert.Pre_finite_inputs.fn (F := Ideal) x0 x1 = fun _ => 1#1) (i : S8192x1024.Idx) : x1 i ≠ ⊤ ∧ x1 i ≠ ⊥ := by
  have h0 := congrFun h ValueIdx.ix0
  dsimp only [Cert.Pre_finite_inputs.fn] at h0
  obtain ⟨_, h2⟩ := IntOp.andi_eq_one.1 h0
  have h3 := Host.reduce_andi_all _ _ _ _ _ h2 i
  have h4 : BitVec.ofBool (decide (max (x1 i) (-(x1 i)) < Ideal.ofBits .f32 0x7F800000#32)) = 1#1 := h3
  rw [ofBits_inf] at h4
  have h5 : max (x1 i) (-(x1 i)) < ⊤ := by
    by_contra hc
    rw [decide_eq_false hc] at h4
    exact absurd h4 (by decide)
  obtain ⟨ha, hb⟩ := max_lt_iff.1 h5
  refine ⟨ne_of_lt ha, fun e => ?_⟩
  rw [e, EReal.neg_bot] at hb
  exact lt_irrefl _ hb

end Cert.Lookup

end
-- ==== Proof.Entry.lean ====
/-
  The three arrays the grid steps read, as the launch finds them.

  Before the launch the selectors are narrowed, the table is narrowed to its leading part, and the remainder is the
  table minus its widened leading part, narrowed again.  On the extended reals a change of float format is the
  identity: the selectors and the leading part are the argument arrays themselves, and the remainder is, entry by
  entry, the table's entry minus itself.
-/
import proofs.«128299_j22471268892727_2_alg».proof.Proof.Gen.KernelIdeal.Frame
import proofs.«128299_j22471268892727_2_alg».proof.Proof.Spec
import Idealize.ShloMosaic.Lib.StableHlo.Run
import Idealize.ShloMosaic.Lib.ValueIdx

noncomputable section

namespace Cert.Lookup

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The narrowed selectors are the first argument array. -/
theorem selectors_entry (c : Dev nD) :
    (V m c main_v0 : S8192x8192.Idx → EReal) = m ((c : Thread nD τ).loc main_arg0) := by
  dsimp only [Gen.V, Gen.hostOps0]
  after_results
  rfl

/-- The table's leading part is the second argument array. -/
theorem leading_entry (c : Dev nD) :
    (V m c main_v1 : S8192x1024.Idx → EReal) = m ((c : Thread nD τ).loc main_arg1) := by
  dsimp only [Gen.V, Gen.hostOps0]
  after_results
  rfl

/-- The remainder holds, at every entry, the table's entry minus itself. -/
theorem remainder_entry (c : Dev nD) :
    (V m c main_v4 : S8192x1024.Idx → EReal) = subSelf (m ((c : Thread nD τ).loc main_arg1)) := by
  dsimp only [Gen.V, Gen.hostOps0]
  after_results
  rfl

end Cert.Lookup

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.Payload.lean ====
/-
  What one grid step computes, entry by entry.

  A step loads a tile of 256 selector rows and the two whole table parts, multiplies the tile by each part into a
  zero accumulator, and adds the two products.  At row `p` and column `e` of the tile's result that is
  `∑ⱼ a[p, j] · hi[j, e] + ∑ⱼ a[p, j] · lo[j, e]`, each sum over the 8192 table rows.
-/
import proofs.«128299_j22471268892727_2_alg».proof.Proof.Gen.KernelIdeal.Skeleton
import proofs.«128299_j22471268892727_2_alg».proof.Proof.LibDot
import Idealize.ShloMosaic.Lib.Pipeline.Value
import Idealize.ShloMosaic.Lib.ValueIdx

noncomputable section

open scoped BigOperators

namespace Cert.Lookup

open Idealize.ShloMosaic Idealize.ShloMosaic.ValueIdx Cert.KernelIdeal Cert.KernelIdeal.Gen

local notation "tileDims" => dot_S256x8192_S8192x1024_S256x1024_1_0_0_1_n_n

/-- The tile's row coordinate is the left operand's row. -/
theorem tile_lhs_row (i : S256x1024.Idx) (q : (tileDims).contr.Idx) : ((tileDims).lhsIdx i q 0).val = (i 0).val := by
  unfold DotDims.lhsIdx
  rw [dif_neg (show ¬(0 : Fin S256x8192.rank) ∈ (tileDims).lhsBatch by decide),
    dif_pos (show (0 : Fin S256x8192.rank) ∈ (tileDims).lhsNonContracting by decide)]
  rfl

/-- The contracted coordinate is the left operand's column. -/
theorem tile_lhs_col (i : S256x1024.Idx) (q : (tileDims).contr.Idx) :
    ((tileDims).lhsIdx i q 1).val = (q ⟨0, by decide⟩).val :=
  (tileDims).lhsIdx_val_of_single rfl i q

/-- The contracted coordinate is the right operand's row. -/
theorem tile_rhs_row (i : S256x1024.Idx) (q : (tileDims).contr.Idx) :
    ((tileDims).rhsIdx i q 0).val = (q ⟨0, by decide⟩).val :=
  (tileDims).rhsIdx_val_of_single rfl i q

/-- The tile's column coordinate is the right operand's column. -/
theorem tile_rhs_col (i : S256x1024.Idx) (q : (tileDims).contr.Idx) : ((tileDims).rhsIdx i q 1).val = (i 1).val := by
  unfold DotDims.rhsIdx
  rw [dif_neg (show ¬(1 : Fin S8192x1024.rank) ∈ (tileDims).rhsBatch by decide),
    dif_pos (show (1 : Fin S8192x1024.rank) ∈ (tileDims).rhsNonContracting by decide)]
  rfl

/-- A tile of selector rows times a table part, into the zero accumulator, at `(p, e)`: the sum over the table's rows. -/
theorem tile_product_apply (A : FVec Ideal S256x8192 .bf16) (B : FVec Ideal S8192x1024 .bf16) (p : Fin 256) (e : Fin 1024) :
    matmul tileDims none A B (constant S256x1024 .f32 0x00000000#32) (ix2 p e) = ∑ j : Fin 8192, A (ix2 p j) * B (ix2 j e) :=
  Cert.LibDot.matmul_zero_apply tileDims rfl rfl tile_lhs_row tile_lhs_col tile_rhs_row tile_rhs_col none A B p e

/-- The step's stored value at `(p, e)`: the two partial products, added. -/
theorem step_apply (a : Vec Ideal S256x8192 .bf16) (hi lo : Vec Ideal S8192x1024 .bf16) (p : Fin 256) (e : Fin 1024) :
    k0_pay1 (F := Ideal) a hi lo (ix2 p e)
      = ∑ j : Fin 8192, a (ix2 p j) * hi (ix2 j e) + ∑ j : Fin 8192, a (ix2 p j) * lo (ix2 j e) := by
  unfold k0_pay1
  simp only [shapeCast_self]
  rw [addf_apply, tile_product_apply, tile_product_apply]

end Cert.Lookup

end
-- ==== Proof.Blocks.lean ====
/-
  From the grid steps to the whole result array.

  Step `t` of the 32 reads rows `256·t … 256·t + 255` of the selectors and the two table parts whole, and writes back
  rows `256·t … 256·t + 255` of the result.  What it writes is those rows of the sum of the two partial products of the
  arrays the launch finds; the 32 row bands cover the result (row `r` lies in band `r / 256`), so the result array ends
  as that sum.
-/
import proofs.«128299_j22471268892727_2_alg».proof.Proof.Gen.KernelIdeal.Value
import proofs.«128299_j22471268892727_2_alg».proof.Proof.Spec
import proofs.«128299_j22471268892727_2_alg».proof.Proof.Payload

set_option maxRecDepth 16384

noncomputable section

open scoped BigOperators

namespace Cert.Lookup

open Idealize.ShloMosaic Idealize.ShloMosaic.TcCoe Idealize.SL.Sem Idealize.ShloMosaic.ValueIdx
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The step's stored value at any entry of the tile, by the entry's two coordinates. -/
theorem step_at (a : Vec Ideal S256x8192 .bf16) (hi lo : Vec Ideal S8192x1024 .bf16) (j : S256x1024.Idx) :
    k0_pay1 (F := Ideal) a hi lo j
      = ∑ k : Fin 8192, a (ix2 (j 0) k) * hi (ix2 k (j 1)) + ∑ k : Fin 8192, a (ix2 (j 0) k) * lo (ix2 k (j 1)) := by
  obtain ⟨p, e, rfl⟩ : ∃ (p : Fin 256) (e : Fin 1024), j = ix2 p e := ⟨j 0, j 1, eq_ix2 j⟩
  exact step_apply a hi lo p e

/-- Where each window's block sits at step `t`: the selectors' and the result's at row band `t`, the table parts'
    at the origin (decided over the 32 steps). -/
theorem band_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 31 ∧ win0_3.index t (1 : Fin 2) = 0 :=
  (by decide +kernel : ∀ t : Fin grid0.N, _)

/-- Every row band is some step's. -/
theorem band_onto : ∀ q : Fin 32, ∃ t : Fin cfg0.N, win0_3.index t = ![q.val, 0] :=
  (by decide +kernel : ∀ q : Fin 32, ∃ t : Fin grid0.N, win0_3.index t = ![q.val, 0])

/-- What step `t` writes back is band `t` of the sum of the two partial products of the arrays the launch finds. -/
theorem flushed_eq (c : Dev nD) (t : Fin cfg0.N) :
    (dats m 0 c).flushed 3 t
      = ((cfg0.win 3).blk t).view.read (Elt Ideal) (twoPass (V m c main_v0) (V m c main_v1) (V m c main_v4)) := by
  rw [flushed3]
  unfold out0_3
  rw [View.canon_unit_zero zero_offsets]
  simp only [View.ld_unit_zero (S := S256x8192) zero_offsets, View.ld_unit_zero (S := S8192x1024) zero_offsets]
  obtain ⟨e0, e1, e2, e3, e4, e5, -, e7⟩ := band_facts t
  funext j
  show k0_pay1 (iblk m c 0 t) (iblk m c 1 t) (iblk m c 2 t) j
    = twoPass (V m c main_v0) (V m c main_v1) (V m c main_v4) (((cfg0.win 3).blk t).view.emb j)
  refine (step_at (iblk m c 0 t) (iblk m c 1 t) (iblk m c 2 t) j).trans ?_
  have ha : ∀ k : Fin 8192, iblk m c 0 t (ix2 (j 0) k)
      = V m c main_v0 (ix2 ((((cfg0.win 3).blk t).view.emb j) 0) k) := fun k => by
    show V m c main_v0 (((cfg0.win 0).blk t).view.emb (ix2 (j 0) k)) = _
    refine congrArg _ (funext fun a => Fin.ext ?_)
    match a with
    | ⟨0, _⟩ => show win0_0.index t (0 : Fin 2) * 256 + 1 * (j 0).val = win0_3.index t (0 : Fin 2) * 256 + 1 * (j 0).val; omega
    | ⟨1, _⟩ => show win0_0.index t (1 : Fin 2) * 8192 + 1 * k.val = k.val; omega
  have hh : ∀ k : Fin 8192, iblk m c 1 t (ix2 k (j 1))
      = V m c main_v1 (ix2 k ((((cfg0.win 3).blk t).view.emb j) 1)) := fun k => by
    show V m c main_v1 (((cfg0.win 1).blk t).view.emb (ix2 k (j 1))) = _
    refine congrArg _ (funext fun a => Fin.ext ?_)
    match a with
    | ⟨0, _⟩ => show win0_1.index t (0 : Fin 2) * 8192 + 1 * k.val = k.val; omega
    | ⟨1, _⟩ => show win0_1.index t (1 : Fin 2) * 1024 + 1 * (j 1).val = win0_3.index t (1 : Fin 2) * 1024 + 1 * (j 1).val; omega
  have hl : ∀ k : Fin 8192, iblk m c 2 t (ix2 k (j 1))
      = V m c main_v4 (ix2 k ((((cfg0.win 3).blk t).view.emb j) 1)) := fun k => by
    show V m c main_v4 (((cfg0.win 2).blk t).view.emb (ix2 k (j 1))) = _
    refine congrArg _ (funext fun a => Fin.ext ?_)
    match a with
    | ⟨0, _⟩ => show win0_2.index t (0 : Fin 2) * 8192 + 1 * k.val = k.val; omega
    | ⟨1, _⟩ => show win0_2.index t (1 : Fin 2) * 1024 + 1 * (j 1).val = win0_3.index t (1 : Fin 2) * 1024 + 1 * (j 1).val; omega
  simp only [ha, hh, hl]
  rfl

/-- An entry of the result is in step `t`'s band iff each coordinate is in the band's range on its axis. -/
theorem mem_band (t : Fin cfg0.N) (i : S8192x1024.Idx) :
    i ∈ ((cfg0.win 3).blk t).view.set
      ↔ ∀ a : Fin 2, win0_3.index t a * S256x1024.size a ≤ (i a).val ∧ (i a).val < win0_3.index t a * S256x1024.size a + S256x1024.size a := by
  show i ∈ ((View.whole main_v5).slice (win0_3.rect t)).set ↔ _
  rw [View.set_slice_whole, Rect.mem_set_unit]
  exact Iff.rfl

/-- Every entry of the result lies in the band of some step that writes back: row `r` in band `r / 256`. -/
theorem bands_cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ := band_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_band]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- The result array after the run: the sum of the two partial products of the arrays the launch finds. -/
theorem result_array (c : Dev nD) :
    (dats m 0 c).arrAt 3 cfg0.N = twoPass (V m c main_v0) (V m c main_v1) (V m c main_v4) :=
  (dats m 0 c).arrAt_eq_of_cover 3 _ (fun t _ => flushed_eq m c t) bands_cover

end Cert.Lookup

end
-- ==== Proof.Reference.lean ====
/-
  The reference's one operation is the product of the selector rows with the table columns: entry `(p, e)` of its
  result is `∑ₖ A[p, k] · W[k, e]`, the contracted coordinate running over the selectors' columns and the table's rows.
-/
import proofs.«128299_j22471268892727_2_alg».proof.Proof.Gen.ReferenceIdeal.Read
import proofs.«128299_j22471268892727_2_alg».proof.Proof.Spec

noncomputable section

open scoped BigOperators

namespace Cert.Lookup

open Idealize.ShloMosaic Idealize.ShloMosaic.ValueIdx Cert.ReferenceIdeal Cert.ReferenceIdeal.Read

/-- The reference's result is `rowsByCols` of its two arguments. -/
theorem reference_eq (A : FVec Ideal S8192x8192 .f32) (W : FVec Ideal S8192x1024 .f32) :
    val_main_v0 (F := Ideal) A W = rowsByCols A W := by
  funext i
  have el : ∀ k : Fin 8192, lidx_main_v0 i k = ix2 (i 0) k := fun k =>
    funext fun a => by match a with | ⟨0, _⟩ => rfl | ⟨1, _⟩ => rfl
  have er : ∀ k : Fin 8192, ridx_main_v0 i k = ix2 k (i 1) := fun k =>
    funext fun a => by match a with | ⟨0, _⟩ => rfl | ⟨1, _⟩ => rfl
  rw [val_main_v0_apply]
  simp only [el, er]
  rfl

end Cert.Lookup

end
-- ==== Proof.lean ====
/-
  A lookup of table rows by one-hot selectors, computed as a matrix product.

  The kernel narrows the selectors `A` (8192 × 8192), splits the table `W` (8192 × 1024) into a leading part and the
  remainder `W − leading`, and in 32 steps of 256 selector rows each adds the two products `A · leading + A · remainder`.
  The reference computes `A · W` in one operation.  On the extended reals a change of float format is the identity,
  so the leading part is `W` itself and the remainder is `W − W` entry by entry.  A table of real numbers has
  `W − W = 0`, a product with zero is zero for every extended real, and the second product vanishes: both programs
  end with `∑ₖ A[p, k] · W[k, e]` at every entry `(p, e)`.  The precondition is used for the table only (an infinite
  entry would make `W − W` infinite); the selectors may hold any extended reals.

  The modules: `Spec` (the product and the law above), `Finite` (the precondition gives a real table), `Payload`
  (one step's stored value at an entry), `Entry` (the arrays the steps read, from the arguments), `Blocks` (the 32
  row bands make up the result array), `Reference` (the reference's operation read at an entry).
-/
import proofs.«128299_j22471268892727_2_alg».proof.Defs
import proofs.«128299_j22471268892727_2_alg».proof.Proof.Gen.Kernel
import proofs.«128299_j22471268892727_2_alg».proof.Proof.Gen.Kernel.Skeleton
import proofs.«128299_j22471268892727_2_alg».proof.Proof.Gen.Kernel.Launch
import proofs.«128299_j22471268892727_2_alg».proof.Proof.Gen.Kernel.Points
import proofs.«128299_j22471268892727_2_alg».proof.Proof.Gen.Kernel.Frame
import proofs.«128299_j22471268892727_2_alg».proof.Proof.Gen.KernelIdeal
import proofs.«128299_j22471268892727_2_alg».proof.Proof.Gen.KernelIdeal.Skeleton
import proofs.«128299_j22471268892727_2_alg».proof.Proof.Gen.KernelIdeal.Launch
import proofs.«128299_j22471268892727_2_alg».proof.Proof.Gen.KernelIdeal.Points
import proofs.«128299_j22471268892727_2_alg».proof.Proof.Gen.KernelIdeal.Frame
import proofs.«128299_j22471268892727_2_alg».proof.Proof.Gen.ReferenceIdeal
import proofs.«128299_j22471268892727_2_alg».proof.Proof.Gen.KernelIdeal.Value
import proofs.«128299_j22471268892727_2_alg».proof.Proof.Gen.ReferenceIdeal.Run
import proofs.«128299_j22471268892727_2_alg».proof.Proof.Gen.ReferenceIdeal.Read
import proofs.«128299_j22471268892727_2_alg».proof.Proof.Gen.Pre_finite_inputs
import proofs.«128299_j22471268892727_2_alg».proof.Proof.Spec
import proofs.«128299_j22471268892727_2_alg».proof.Proof.Finite
import proofs.«128299_j22471268892727_2_alg».proof.Proof.Entry
import proofs.«128299_j22471268892727_2_alg».proof.Proof.Blocks
import proofs.«128299_j22471268892727_2_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the product of the selector rows with the table columns.  The kernel: the 32 row bands
    make up the sum of the two partial products of the arrays the steps read; those arrays are the selectors, the
    table and the table minus itself; and the table is real under the precondition, so the second product is zero.
    The reference: its one operation, read at an entry. -/
theorem algebraic : Cert.algebraic_KernelIdeal_ReferenceIdeal := by
  intro m ρ m' ρ' hpre hagree
  refine ⟨fun c => Cert.Lookup.rowsByCols (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Value.run_blocks m ρ)
    rw [Cert.Lookup.result_array m c, Cert.Lookup.selectors_entry m c, Cert.Lookup.leading_entry m c,
      Cert.Lookup.remainder_entry m c]
    exact Cert.Lookup.twoPass_sub_self _ _ fun i => Cert.Lookup.table_real _ _ (hpre c) i
  · refine (θ_run Cert.ReferenceIdeal.defs _ _).mono (fun _ h c => ⟨(h c).1.trans ?_, (h c).2⟩)
      (Cert.ReferenceIdeal.Value.run (F := Ideal) m' ρ')
    rw [(hagree c).1, (hagree c).2, Cert.ReferenceIdeal.Read.val_main_v0_eq]
    exact Cert.Lookup.reference_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
